-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) (main_arg2 : FVec F S262144x128 .f32) (main_arg3 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  main_v13
-- ==== Kernel.lean ====
abbrev S262144x128 : Shape := ⟨2, ![262144, 128]⟩
abbrev S262144 : Shape := ⟨1, ![262144]⟩
abbrev S4 : Shape := ⟨1, ![4]⟩
abbrev S_ : Shape := ⟨0, ![]⟩
abbrev S262144x1 : Shape := ⟨2, ![262144, 1]⟩
abbrev S1x8192 : Shape := ⟨2, ![1, 8192]⟩
abbrev S4096x128 : Shape := ⟨2, ![4096, 128]⟩
abbrev S4096x1 : Shape := ⟨2, ![4096, 1]⟩
abbrev S1x128 : Shape := ⟨2, ![1, 128]⟩
abbrev S4096 : Shape := ⟨1, ![4096]⟩
abbrev S1 : Shape := ⟨1, ![1]⟩
abbrev S1x1 : Shape := ⟨2, ![1, 1]⟩

abbrev nBuf : Space → Nat
  | .hbm => 20
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S4, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144, .f32⟩
  | .hbm, ⟨14, _⟩ => ⟨S262144x1, .f32⟩
  | .hbm, ⟨15, _⟩ => ⟨S1x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x1, .f32⟩
  | .local _ .vmem, ⟨7, _⟩ => ⟨S4096x1, .f32⟩
  | .local _ .vmem, ⟨8, _⟩ => ⟨S1x128, .f32⟩
  | .local _ .vmem, ⟨9, _⟩ => ⟨S1x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144_S262144x1 : S262144.ShapeCasts S262144x1
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  reducesTo_S1x8192_S_d0_1 : S1x8192.ReducesTo [0, 1] S_
  h_S_ : 0 < S_.numel
  gather_S4_S262144x1_S262144_n_0_n_n_0_1_1_wf : GatherDims.WF S4 S262144x1 S262144 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .f32 = 32 ∨ (Rect.block (s := S262144x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x8192.size a
  hwx0_4 : ∀ i : grid0.Coords, EltTy.bits .f32 = 32 ∨ (Rect.block (s := S1x8192) S1x128.size (cc0_transform_4 i) (hinb0_4 i)).WholeWords (EltTy.packing .f32)

variable [Facts₀]

def gather_S4_S262144x1_S262144_n_0_n_n_0_1_1 : GatherDims S4 S262144x1 S262144 where
  offsetDims := []
  collapsedSliceDims := [0]
  operandBatchingDims := []
  startIndicesBatchingDims := []
  startIndexMap := [0]
  indexVectorDim := 1
  sliceSizes := ![1]
  wf := gather_S4_S262144x1_S262144_n_0_n_n_0_1_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S4 : Shape := ⟨1, ![4]⟩
abbrev S_ : Shape := ⟨0, ![]⟩
abbrev S262144x1 : Shape := ⟨2, ![262144, 1]⟩

abbrev nBuf : Space → Nat
  | .hbm => 39
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144, .i32⟩
  | .hbm, ⟨4, _⟩ => ⟨S4, .f32⟩
  | .hbm, ⟨5, _⟩ => ⟨S262144x128, .f32⟩
  | .hbm, ⟨6, _⟩ => ⟨S_, .f32⟩
  | .hbm, ⟨7, _⟩ => ⟨S262144x128, .f32⟩
  | .hbm, ⟨8, _⟩ => ⟨S262144x128, .f32⟩
  | .hbm, ⟨9, _⟩ => ⟨S262144x128, .f32⟩
  | .hbm, ⟨10, _⟩ => ⟨S_, .f32⟩
  | .hbm, ⟨11, _⟩ => ⟨S262144, .f32⟩
  | .hbm, ⟨12, _⟩ => ⟨S262144, .f32⟩
  | .hbm, ⟨13, _⟩ => ⟨S262144x128, .f32⟩
  | .hbm, ⟨14, _⟩ => ⟨S_, .f32⟩
  | .hbm, ⟨15, _⟩ => ⟨S262144x128, .f32⟩
  | .hbm, ⟨16, _⟩ => ⟨S262144x128, .f32⟩
  | .hbm, ⟨17, _⟩ => ⟨S262144x128, .f32⟩
  | .hbm, ⟨18, _⟩ => ⟨S_, .f32⟩
  | .hbm, ⟨19, _⟩ => ⟨S262144, .f32⟩
  | .hbm, ⟨20, _⟩ => ⟨S262144, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S_, .f32⟩
  | .hbm, ⟨33, _⟩ => ⟨S262144, .f32⟩
  | .hbm, ⟨34, _⟩ => ⟨S262144, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144_S_d0 : S262144.ReducesTo [0] S_
  gather_S4_S262144x1_S262144_n_0_n_n_0_1_1_wf : GatherDims.WF S4 S262144x1 S262144 [] [0] [] [0] [] 1 ![1]

variable [Facts₀]

def gather_S4_S262144x1_S262144_n_0_n_n_0_1_1 : GatherDims S4 S262144x1 S262144 where
  offsetDims := []
  collapsedSliceDims := [0]
  operandBatchingDims := []
  startIndicesBatchingDims := []
  startIndexMap := [0]
  indexVectorDim := 1
  sliceSizes := ![1]
  wf := gather_S4_S262144x1_S262144_n_0_n_n_0_1_1_wf

class Facts : Prop extends Facts₀ where

variable [Facts]
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Spec.lean ====
/-
  The quantity both programs compute, and the one law that joins their two arrangements of it.

  For three arrays `a`, `p`, `n` of 262144 rows of 128 numbers and a margin per row, row `R` has the loss
  `max (‖a_R − p_R + ε‖ − ‖a_R − n_R + ε‖ + margin_R) 0`, where `‖v‖` is the square root of the sum of the squares
  of the 128 entries of `v` and `ε` is added to every entry; the result is the mean of the 262144 losses.

  One program adds the 262144 losses and divides by 262144. The other cuts the rows into 64 blocks of 4096,
  adds each block's losses, writes each block sum 128 times side by side into a row of 8192 numbers, adds that
  row and divides by 262144 · 128. The second total is 128 times the first (the same numbers, each counted 128
  times), and dividing 128 · S by 128 · 262144 is dividing S by 262144. On the extended reals this needs no
  finiteness: repeated addition `128 • S` is the product `128 · S` for every `S`, sums may be regrouped freely, and
  a division by a nonzero real is a product with its reciprocal, so only associativity and commutativity are used.
-/
import Idealize.ShloMosaic.Lib.ValueIdx
import Idealize.ShloMosaic.PureOps.Ideal.Laws

noncomputable section

open scoped BigOperators

namespace Cert.Spec

open Idealize.ShloMosaic Idealize.ShloMosaic.ValueIdx

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- The number added to every entry of a difference before it is squared. -/
def eps : EReal := Ideal.ofBits .f32 0x358637BD#32

/-- The sum over the 128 entries of row `R` of the squares of `x − y + ε`. -/
def sumSq (x y : (⟨2, ![262144, 128]⟩ : Shape).Idx → EReal) (R : Fin 262144) : EReal :=
  ∑ k : Fin 128, (x (ix2 R k) - y (ix2 R k) + eps) * (x (ix2 R k) - y (ix2 R k) + eps)

/-- The shifted distance between row `R` of `x` and of `y`. -/
def dist (x y : (⟨2, ![262144, 128]⟩ : Shape).Idx → EReal) (R : Fin 262144) : EReal :=
  Ideal.sqrt (sumSq x y R)

/-- Row `R`'s loss. -/
def loss (a p n : (⟨2, ![262144, 128]⟩ : Shape).Idx → EReal) (mg : (⟨1, ![262144]⟩ : Shape).Idx → EReal)
    (R : Fin 262144) : EReal :=
  max (dist a p R - dist a n R + mg (ix1 R)) 0

/-- The mean loss: the total over the rows divided by their number. -/
def mean (a p n : (⟨2, ![262144, 128]⟩ : Shape).Idx → EReal) (mg : (⟨1, ![262144]⟩ : Shape).Idx → EReal) : EReal :=
  Ideal.div (∑ R : Fin 262144, loss a p n mg R) (Ideal.ofBits .f32 0x48800000#32)

/-- Row `r` of block `i`, as a row of the whole array. -/
def row (i : Fin 64) (r : Fin 4096) : Fin 262144 := ⟨i.val * 4096 + r.val, by omega⟩

/-- The sum of a per-row quantity over block `i`. -/
def blockSum (L : Fin 262144 → EReal) (i : Fin 64) : EReal := ∑ r : Fin 4096, L (row i r)

/-- The row of 8192 numbers holding each block sum 128 times: entry `q` is the sum of block `q / 128`. -/
def lanes (L : Fin 262144 → EReal) : (⟨2, ![1, 8192]⟩ : Shape).Idx → EReal :=
  fun j => blockSum L ⟨(j 1).val / 128, by have := idx2_lt1 j; omega⟩

/-- The word `0x4C000000` denotes 2^25 = 33554432. -/
theorem ofBits_2p25 : Ideal.ofBits .f32 0x4C000000#32 = ((33554432 : ℝ) : EReal) := by
  simp [Ideal.ofBits, Ideal.ieee, -EReal.coe_mul]; norm_num

/-- The word `0x48800000` denotes 2^18 = 262144. -/
theorem ofBits_2p18 : Ideal.ofBits .f32 0x48800000#32 = ((262144 : ℝ) : EReal) := by
  simp [Ideal.ofBits, Ideal.ieee, -EReal.coe_mul]; norm_num

/-- The rows, block by block: a sum over all rows is the sum over the blocks of the block sums. -/
theorem sum_rows (L : Fin 262144 → EReal) : ∑ R : Fin 262144, L R = ∑ i : Fin 64, blockSum L i := by
  unfold blockSum
  rw [← Fintype.sum_prod_type (f := fun x : Fin 64 × Fin 4096 => L (row x.1 x.2))]
  refine (Fintype.sum_equiv (finProdFinEquiv (m := 64) (n := 4096)) _ _ fun x => ?_).symm
  refine congrArg L (Fin.ext ?_)
  show x.1.val * 4096 + x.2.val = x.2.val + 4096 * x.1.val
  omega

/-- The 8192 entries, block by block: their sum is 128 times the sum of the block sums. -/
theorem sum_lanes (L : Fin 262144 → EReal) : ∑ j, lanes L j = 128 • ∑ i : Fin 64, blockSum L i := by
  rw [sum_idx2, Fin.sum_univ_one, ← Finset.sum_nsmul]
  have h : ∀ i : Fin 64, (128 : ℕ) • blockSum L i = ∑ _l : Fin 128, blockSum L i := fun i => by
    rw [Finset.sum_const, Finset.card_univ, Fintype.card_fin]
  simp only [h]
  rw [← Fintype.sum_prod_type (f := fun x : Fin 64 × Fin 128 => blockSum L x.1)]
  refine (Fintype.sum_equiv (finProdFinEquiv (m := 64) (n := 128)) _ _ fun x => ?_).symm
  show blockSum L x.1 = blockSum L ⟨(x.2.val + 128 * x.1.val) / 128, _⟩
  refine congrArg (blockSum L) (Fin.ext ?_)
  show x.1.val = (x.2.val + 128 * x.1.val) / 128
  have := x.2.isLt
  omega

/-- THE LAW: the row of repeated block sums, added up and divided by 2^25, is the mean of the per-row
    quantity — its total divided by 2^18 — for every extended-real family `L`. -/
theorem mean_of_lanes (L : Fin 262144 → EReal) :
    Ideal.div (∑ j, lanes L j) (Ideal.ofBits .f32 0x4C000000#32)
      = Ideal.div (∑ R : Fin 262144, L R) (Ideal.ofBits .f32 0x48800000#32) := by
  rw [sum_lanes, sum_rows, ofBits_2p25, ofBits_2p18, Ideal.div_coe (by norm_num), Ideal.div_coe (by norm_num),
    EReal.nsmul_eq_mul, mul_comm ((128 : ℕ) : EReal), mul_assoc]
  refine congrArg (_ * ·) ?_
  rw [show ((128 : ℕ) : EReal) = ((128 : ℝ) : EReal) from rfl, ← EReal.coe_mul]
  exact congrArg _ (by norm_num)

end Cert.Spec

end
-- ==== Proof.Payload.lean ====
/-
  What one grid point of the kernel computes, read at one entry of its output block.

  The body loads three blocks of 4096 rows by 128 entries (rows of `a`, `p`, `n`) and a column of 4096 margins.
  For every row it forms the two shifted distances (the square root of the row sum of the squared entries of
  `a − p + ε`, and of `a − n + ε`), their difference plus the row's margin, clipped below at zero; it adds the
  4096 clipped values and writes that one number into all 128 entries of its output block. So every entry of
  the block is the same sum over the block's rows.
-/
import proofs.«139144_j55972013802306_2_alg».proof.Proof.Gen.KernelIdeal.Skeleton
import proofs.«139144_j55972013802306_2_alg».proof.Proof.LibKeepdims
import proofs.«139144_j55972013802306_2_alg».proof.Proof.Spec
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.LibKeepdims

/-- The lane sum of a block of 4096 rows, at row `r`: the sum of that row's 128 entries. -/
theorem rowSum (v : FVec Ideal S4096x128 .f32) (h : S4096x128.Reduces [1] S4096) (hφ : FKind.Formats .f32)
    (hacc : (0x00000000#32 : BitVec 32) = 0x00000000#32) (r : Fin 4096) :
    multiReduction .add [1] S4096 v 0x00000000#32 h hφ hacc (ix1 r) = ∑ k : Fin 128, v (ix2 r k) := by
  refine (Ideal.multiReduction_add_single v _ h hφ hacc (ix1 r)).trans ?_
  show ∑ k : Fin 128, v (h.lift (ix1 r) k) = _
  refine Finset.sum_congr rfl fun k _ => congrArg v (funext fun a => ?_)
  match a with
  | ⟨0, _⟩ => exact Fin.ext rfl
  | ⟨1, _⟩ => exact Fin.ext rfl

/-- The sum down a column of 4096 entries: the sum of the entries. -/
theorem colSum (v : FVec Ideal S4096x1 .f32) (h : S4096x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 4096, v (ix2 r u) := by
  refine (Ideal.multiReduction_add_single v _ h hφ hacc (ix1 u)).trans ?_
  show ∑ r : Fin 4096, v (h.lift (ix1 u) r) = _
  refine Finset.sum_congr rfl fun r _ => congrArg v (funext fun a => ?_)
  match a with
  | ⟨0, _⟩ => exact Fin.ext rfl
  | ⟨1, _⟩ => exact Fin.ext rfl

/-- One row's clipped value from the loaded blocks: the two shifted distances' difference plus the margin,
    not below zero. -/
def rowLoss (x0 x1 x2 : Vec Ideal S4096x128 .f32) (x3 : Vec Ideal S4096x1 .f32) (r : Fin 4096) : EReal :=
  max (Ideal.sqrt (∑ k : Fin 128, (x0 (ix2 r k) - x1 (ix2 r k) + Spec.eps) * (x0 (ix2 r k) - x1 (ix2 r k) + Spec.eps))
      - Ideal.sqrt (∑ k : Fin 128, (x0 (ix2 r k) - x2 (ix2 r k) + Spec.eps) * (x0 (ix2 r k) - x2 (ix2 r k) + Spec.eps))
      + x3 (ix2 r (0 : Fin 1))) 0

/-- Every entry of the block the body stores is the sum of the 4096 rows' clipped values. -/
theorem pay_apply (x0 x1 x2 : Vec Ideal S4096x128 .f32) (x3 : Vec Ideal S4096x1 .f32) (u : Fin 1) (l : Fin 128) :
    k0_pay1 x0 x1 x2 x3 (ix2 u l) = ∑ r : Fin 4096, rowLoss x0 x1 x2 x3 r := by
  unfold k0_pay1
  refine (broadcastTo_a1_ab_apply _ _ u l).trans ?_
  rw [shapeCast_self]
  refine (shapeCast_a_a1_apply _ _ u (0 : Fin 1)).trans ?_
  refine (colSum _ _ _ _ u).trans ?_
  refine Finset.sum_congr rfl fun r _ => ?_
  obtain rfl : u = 0 := Subsingleton.elim _ _
  rw [shapeCast_self]
  show max (Ideal.sqrt (shapeCast S4096x1 _ shapeCasts_S4096_S4096x1 (ix2 r (0 : Fin 1)))
      - Ideal.sqrt (shapeCast S4096x1 _ shapeCasts_S4096_S4096x1 (ix2 r (0 : Fin 1))) + x3 (ix2 r (0 : Fin 1)))
    (Ideal.ofBits .f32 0x00000000#32) = _
  rw [shapeCast_a_a1_apply, shapeCast_a_a1_apply, rowSum, rowSum, Ideal.ofBits_zero_f32]
  rfl

end Cert.KernelIdeal.Hand

end
-- ==== Proof.KernelValue.lean ====
/-
  The kernel program's run, read back: its result buffer ends holding the mean loss.

  The grid has 64 points. Point `t` loads rows `4096·t … 4096·t + 4095` of the three argument arrays and of the
  margin column, and writes back entries `128·t … 128·t + 127` of a row of 8192 numbers; by the body's arithmetic
  each of those entries is the sum of that block's 4096 clipped per-row values. The 64 written blocks tile the
  row, so after the grid the row holds, at entry `q`, the sum of block `q / 128`. The two operations after the
  grid add the row's entries (from zero) and divide by 2^25, which by the specification's law is the mean loss.
  The margin column the grid reads is the margin vector, recast as a column by the operations before the grid.
-/
import proofs.«139144_j55972013802306_2_alg».proof.Proof.Gen.KernelIdeal.Frame
import proofs.«139144_j55972013802306_2_alg».proof.Proof.Payload
import proofs.«139144_j55972013802306_2_alg».proof.Proof.Spec
import Idealize.ShloMosaic.Lib.Pipeline.Value
import Idealize.ShloMosaic.Lib.StableHlo.Run
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.LibKeepdims
open Idealize.ShloMosaic.Pipeline (Dat)

variable (m : (ℓ : Loc nD τ sig) → Buf (Elt Ideal) ℓ) (ρ : Dev nD → PrngReg)

/-- The per-row margin: the four-entry table read at each row's class, a negative class counted from the end. -/
def margins (cs : IVec S262144 32) : FVec Ideal S262144 .f32 :=
  Host.gather gather_S4_S262144x1_S262144_n_0_n_n_0_1_1 (fun i => FloatOps.ofBits .f32 (lit0 (S4.rowMajor i)))
    (broadcastInDim S262144x1 ![0] bcast_S262144_S262144x1_0
      (select (cmpi .slt cs (broadcastInDim S262144 ![] bcast_S_S262144 (constantI S_ 32 0#32)))
        (addi cs (broadcastInDim S262144 ![] bcast_S_S262144 (constantI S_ 32 4#32))) cs))

/-- The grid has 64 points. -/
theorem hN : cfg0.N = 64 := N_0

/-- A grid point as a block number. -/
def blk (t : Fin cfg0.N) : Fin 64 := t.cast hN

/-- The per-row loss of the program's arguments on core `c`. -/
def L (c : Dev nD) : Fin 262144 → EReal :=
  Spec.loss (m ((c : Thread nD τ).loc main_arg0)) (m ((c : Thread nD τ).loc main_arg1)) (m ((c : Thread nD τ).loc main_arg2))
    (margins (m ((c : Thread nD τ).loc main_arg3)))

theorem hz : (![0, 0] : Fin 2 → Nat) = fun _ => 0 := funext fun a => by fin_cases a <;> rfl

/-- The printed index maps, decided over the grid: at point `t` every input window is at block row `t`, block
    column 0, and the output window at block row 0, block column `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The margin column the grid reads is the margin vector recast as a column. -/
theorem V_main_v7 (c : Dev nD) :
    (V m c main_v7 : S262144x1.Idx → EReal)
      = fun i => shapeCast S262144x1 (margins (m ((c : Thread nD τ).loc main_arg3))) shapeCasts_S262144_S262144x1 i := by
  show StableHlo.after hostOps0 (fun b => m (c, b)) (Proc.devRef .tc main_v7) = _
  after_results
  rfl

/-- Entry `(r, k)` of the first window's block at point `t` is entry `(4096·t + r, k)` of the first argument. -/
theorem iblk0_apply (c : Dev nD) (t : Fin cfg0.N) (r : Fin 4096) (k : Fin 128) :
    (iblk m c 0 t : Vec Ideal S4096x128 .f32) (ix2 r k)
      = (m ((c : Thread nD τ).loc main_arg0) : S262144x128.Idx → EReal) (ix2 (Spec.row (blk t) r) k) := by
  obtain ⟨h0, h1, -⟩ := idx_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 4096 + 1 * r.val = t.val * 4096 + r.val; rw [h0]; omega
  | ⟨1, _⟩ => show win0_0.index t (1 : Fin 2) * 128 + 1 * k.val = k.val; rw [h1]; omega

theorem iblk1_apply (c : Dev nD) (t : Fin cfg0.N) (r : Fin 4096) (k : Fin 128) :
    (iblk m c 1 t : Vec Ideal S4096x128 .f32) (ix2 r k)
      = (m ((c : Thread nD τ).loc main_arg1) : S262144x128.Idx → EReal) (ix2 (Spec.row (blk t) r) k) := by
  obtain ⟨-, -, h0, h1, -⟩ := idx_facts t
  show V m c main_arg1 (((cfg0.win 1).blk t).view.emb (ix2 r k)) = _
  rw [V_main_arg1]
  refine congrArg _ (funext fun a => Fin.ext ?_)
  match a with
  | ⟨0, _⟩ => show win0_1.index t (0 : Fin 2) * 4096 + 1 * r.val = t.val * 4096 + r.val; rw [h0]; omega
  | ⟨1, _⟩ => show win0_1.index t (1 : Fin 2) * 128 + 1 * k.val = k.val; rw [h1]; omega

theorem iblk2_apply (c : Dev nD) (t : Fin cfg0.N) (r : Fin 4096) (k : Fin 128) :
    (iblk m c 2 t : Vec Ideal S4096x128 .f32) (ix2 r k)
      = (m ((c : Thread nD τ).loc main_arg2) : S262144x128.Idx → EReal) (ix2 (Spec.row (blk t) r) k) := by
  obtain ⟨-, -, -, -, h0, h1, -⟩ := idx_facts t
  show V m c main_arg2 (((cfg0.win 2).blk t).view.emb (ix2 r k)) = _
  rw [V_main_arg2]
  refine congrArg _ (funext fun a => Fin.ext ?_)
  match a with
  | ⟨0, _⟩ => show win0_2.index t (0 : Fin 2) * 4096 + 1 * r.val = t.val * 4096 + r.val; rw [h0]; omega
  | ⟨1, _⟩ => show win0_2.index t (1 : Fin 2) * 128 + 1 * k.val = k.val; rw [h1]; omega

/-- Entry `(r, 0)` of the margin window's block at point `t` is the margin of row `4096·t + r`. -/
theorem iblk3_apply (c : Dev nD) (t : Fin cfg0.N) (r : Fin 4096) :
    (iblk m c 3 t : Vec Ideal S4096x1 .f32) (ix2 r (0 : Fin 1))
      = margins (m ((c : Thread nD τ).loc main_arg3)) (ix1 (Spec.row (blk t) r)) := by
  obtain ⟨-, -, -, -, -, -, h0, h1, -⟩ := idx_facts t
  show V m c main_v7 (((cfg0.win 3).blk t).view.emb (ix2 r (0 : Fin 1))) = _
  rw [V_main_v7]
  have e : ((cfg0.win 3).blk t).view.emb (ix2 r (0 : Fin 1)) = ix2 (Spec.row (blk t) r) (0 : Fin 1) :=
    funext fun a => Fin.ext (by
      match a with
      | ⟨0, _⟩ => show win0_3.index t (0 : Fin 2) * 4096 + 1 * r.val = t.val * 4096 + r.val; rw [h0]; omega
      | ⟨1, _⟩ => show win0_3.index t (1 : Fin 2) * 1 + 1 * 0 = 0; rw [h1])
  rw [e]
  exact shapeCast_a_a1_apply _ _ _ _

/-- A row's clipped value computed from the blocks at point `t` is the loss of row `4096·t + r`. -/
theorem rowLoss_blocks (c : Dev nD) (t : Fin cfg0.N) (r : Fin 4096) :
    rowLoss (iblk m c 0 t) (iblk m c 1 t) (iblk m c 2 t) (iblk m c 3 t) r = L m c (Spec.row (blk t) r) := by
  have e0 := iblk0_apply m c t r
  have e1 := iblk1_apply m c t r
  have e2 := iblk2_apply m c t r
  have e3 := iblk3_apply m c t r
  unfold rowLoss
  simp only [e0, e1, e2, e3]
  rfl

/-- What the row of 8192 numbers ends holding: at entry `q` the sum of block `q / 128`. -/
def G (c : Dev nD) : Buf (Elt Ideal) ((c : Thread nD τ).loc main_v8) := Spec.lanes (L m c)

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S4096x128) hz, View.ld_unit_zero (S := S4096x1) hz]
  obtain ⟨-, -, -, -, -, -, -, -, h0, h1⟩ := idx_facts t
  funext y
  obtain ⟨u, l, rfl⟩ : ∃ (u : Fin 1) (l : Fin 128), y = ix2 u l := ⟨y 0, y 1, eq_ix2 y⟩
  show k0_pay1 (iblk m c 0 t) (iblk m c 1 t) (iblk m c 2 t) (iblk m c 3 t) (ix2 u l)
    = G m c (((cfg0.win 4).blk t).view.emb (ix2 u l))
  refine (pay_apply _ _ _ _ u l).trans ?_
  unfold G Spec.lanes Spec.blockSum
  have hb : (⟨((((cfg0.win 4).blk t).view.emb (ix2 u l)) 1).val / 128, by
      have := idx2_lt1 (((cfg0.win 4).blk t).view.emb (ix2 u l)); omega⟩ : Fin 64) = blk t := Fin.ext (by
    show (win0_4.index t (1 : Fin 2) * 128 + 1 * l.val) / 128 = t.val
    rw [h1]; have := l.isLt; omega)
  rw [hb]
  exact Finset.sum_congr rfl fun r _ => rowLoss_blocks m c t r

/-- An entry of the row is in point `t`'s block iff each coordinate is in the block's range on its axis. -/
theorem mem_blk (t : Fin cfg0.N) (i : S1x8192.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v8).slice (win0_4.rect t)).set ↔ _
  rw [View.set_slice_whole, Rect.mem_set_unit]
  exact Iff.rfl

/-- Every entry of the row is in the block of the point `q / 128`. -/
theorem cover (i : S1x8192.Idx) : ∃ t : Fin cfg0.N, (cfg0.win 4).flush t = true ∧ i ∈ ((cfg0.win 4).blk t).view.set := by
  have hi0 : (i 0).val < 1 := idx2_lt0 i
  have hi1 : (i 1).val < 8192 := idx2_lt1 i
  let t : Fin cfg0.N := ⟨(i 1).val / 128, by rw [hN]; omega⟩
  obtain ⟨-, -, -, -, -, -, -, -, h0, h1⟩ := idx_facts t
  refine ⟨t, flush0_4 t, ?_⟩
  rw [mem_blk]
  intro a
  have ht : t.val = (i 1).val / 128 := rfl
  match a with
  | ⟨0, _⟩ => show win0_4.index t (0 : Fin 2) * 1 ≤ (i 0).val ∧ (i 0).val < win0_4.index t (0 : Fin 2) * 1 + 1; rw [h0]; omega
  | ⟨1, _⟩ => show win0_4.index t (1 : Fin 2) * 128 ≤ (i 1).val ∧ (i 1).val < win0_4.index t (1 : Fin 2) * 128 + 128; rw [h1, ht]; omega

/-- THE ROW after the grid is `G`. -/
theorem final (c : Dev nD) : (dats m 0 c).arrAt 4 cfg0.N = G m c :=
  (dats m 0 c).arrAt_eq_of_cover 4 (G m c) (fun t _ => flushed_eq m c t) cover

/-- The result buffer after the two operations that follow the grid: the mean loss. -/
theorem tail_eq (c : Dev nD) :
    Pipeline.afterTail₀ cfgs (dats m) 0 (V0 m) [hostOps1] c main_v10
      = fun _ => Spec.mean (m ((c : Thread nD τ).loc main_arg0)) (m ((c : Thread nD τ).loc main_arg1))
          (m ((c : Thread nD τ).loc main_arg2)) (margins (m ((c : Thread nD τ).loc main_arg3))) := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v8) = G m c from
    (Pipeline.withArrays_arr spec0 launch0.win.arr_inj c _ _ 4).trans (final m c)]
  funext i
  unfold Host.divf Host.reduceAdd
  simp only [Ideal.hostDivf_def, Ideal.hostReduceAdd_def]
  rw [Ideal.hostReduceAdd_total _ (fun b => b.elim0), constant_apply, constant_apply, Ideal.ofBits_zero_f32, zero_add]
  exact Spec.mean_of_lanes (L m c)

/-- THE RUN, READ: every execution of the kernel program ends with the result buffer at the mean loss of the
    arguments and the arguments unchanged. -/
theorem run : θ_run defs (onTc (τ := τ) (main (F := Ideal))) ⟨m, fun _ => 0, ρ⟩ fun r => ∀ c : Dev nD,
      r.2.mem ((c.tc : Thread nD τ).loc main_v10)
        = (fun _ => Spec.mean (m ((c : Thread nD τ).loc main_arg0)) (m ((c : Thread nD τ).loc main_arg1))
            (m ((c : Thread nD τ).loc main_arg2)) (margins (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference program's run, read back. Its entry function is a straight line of 35 array operations; every
  execution ends with the result buffer holding those operations composed, as one term of the four argument
  arrays, and with the arguments as they were. The term is written here through its natural stages: the
  shifted squared differences of two arrays, their row sums' square roots, the per-row margin looked up in the
  four-entry table, and the mean of the clipped losses.
-/
import proofs.«139144_j55972013802306_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 35 operations, in order. -/
abbrev ops : List (HloOp τ sig (Elt F)) :=
  [ nullary main_cst (fun i => FloatOps.ofBits .f32 (lit0 (S4.rowMajor i))),
    binary main_arg0 main_arg1 main_v0 (subf : (⟨S262144x128, .f32⟩ : BufTy).Contents (Elt F) → (⟨S262144x128, .f32⟩ : BufTy).Contents (Elt F) → (⟨S262144x128, .f32⟩ : BufTy).Contents (Elt F)),
    nullary main_cst_0 (constant S_ .f32 0x358637BD#32),
    unary main_cst_0 main_v1 (broadcastInDim S262144x128 ![] bcast_S_S262144x128 : (⟨S_, .f32⟩ : BufTy).Contents (Elt F) → (⟨S262144x128, .f32⟩ : BufTy).Contents (Elt F)),
    binary main_v0 main_v1 main_v2 (addf : (⟨S262144x128, .f32⟩ : BufTy).Contents (Elt F) → (⟨S262144x128, .f32⟩ : BufTy).Contents (Elt F) → (⟨S262144x128, .f32⟩ : BufTy).Contents (Elt F)),
    binary main_v2 main_v2 main_v3 (mulf : (⟨S262144x128, .f32⟩ : BufTy).Contents (Elt F) → (⟨S262144x128, .f32⟩ : BufTy).Contents (Elt F) → (⟨S262144x128, .f32⟩ : BufTy).Contents (Elt F)),
    nullary main_cst_1 (constant S_ .f32 0x00000000#32),
    binary main_v3 main_cst_1 main_v4 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v4 main_v5 (Host.sqrt : (⟨S262144, .f32⟩ : BufTy).Contents (Elt F) → (⟨S262144, .f32⟩ : BufTy).Contents (Elt F)),
    binary main_arg0 main_arg2 main_v6 (subf : (⟨S262144x128, .f32⟩ : BufTy).Contents (Elt F) → (⟨S262144x128, .f32⟩ : BufTy).Contents (Elt F) → (⟨S262144x128, .f32⟩ : BufTy).Contents (Elt F)),
    nullary main_cst_2 (constant S_ .f32 0x358637BD#32),
    unary main_cst_2 main_v7 (broadcastInDim S262144x128 ![] bcast_S_S262144x128 : (⟨S_, .f32⟩ : BufTy).Contents (Elt F) → (⟨S262144x128, .f32⟩ : BufTy).Contents (Elt F)),
    binary main_v6 main_v7 main_v8 (addf : (⟨S262144x128, .f32⟩ : BufTy).Contents (Elt F) → (⟨S262144x128, .f32⟩ : BufTy).Contents (Elt F) → (⟨S262144x128, .f32⟩ : BufTy).Contents (Elt F)),
    binary main_v8 main_v8 main_v9 (mulf : (⟨S262144x128, .f32⟩ : BufTy).Contents (Elt F) → (⟨S262144x128, .f32⟩ : BufTy).Contents (Elt F) → (⟨S262144x128, .f32⟩ : BufTy).Contents (Elt F)),
    nullary main_cst_3 (constant S_ .f32 0x00000000#32),
    binary main_v9 main_cst_3 main_v10 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v10 main_v11 (Host.sqrt : (⟨S262144, .f32⟩ : BufTy).Contents (Elt F) → (⟨S262144, .f32⟩ : BufTy).Contents (Elt F)),
    nullary main_c (constantI S_ 32 0#32),
    unary main_c main_v12 (broadcastInDim S262144 ![] bcast_S_S262144 : (⟨S_, .i32⟩ : BufTy).Contents (Elt F) → (⟨S262144, .i32⟩ : BufTy).Contents (Elt F)),
    binary main_arg3 main_v12 main_v13 (cmpi .slt : (⟨S262144, .i32⟩ : BufTy).Contents (Elt F) → (⟨S262144, .i32⟩ : BufTy).Contents (Elt F) → (⟨S262144, .i1⟩ : BufTy).Contents (Elt F)),
    nullary main_c_4 (constantI S_ 32 4#32),
    unary main_c_4 main_v14 (broadcastInDim S262144 ![] bcast_S_S262144 : (⟨S_, .i32⟩ : BufTy).Contents (Elt F) → (⟨S262144, .i32⟩ : BufTy).Contents (Elt F)),
    binary main_arg3 main_v14 main_v15 (addi : (⟨S262144, .i32⟩ : BufTy).Contents (Elt F) → (⟨S262144, .i32⟩ : BufTy).Contents (Elt F) → (⟨S262144, .i32⟩ : BufTy).Contents (Elt F)),
    ternary main_v13 main_v15 main_arg3 main_v16 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v16 main_v17 (broadcastInDim S262144x1 ![0] bcast_S262144_S262144x1_0 : (⟨S262144, .i32⟩ : BufTy).Contents (Elt F) → (⟨S262144x1, .i32⟩ : BufTy).Contents (Elt F)),
    binary main_cst main_v17 main_v18 ((fun x i => Host.gather gather_S4_S262144x1_S262144_n_0_n_n_0_1_1 x i) : (⟨S4, .f32⟩ : BufTy).Contents (Elt F) → (⟨S262144x1, .i32⟩ : BufTy).Contents (Elt F) → (⟨S262144, .f32⟩ : BufTy).Contents (Elt F)),
    binary main_v5 main_v11 main_v19 (subf : (⟨S262144, .f32⟩ : BufTy).Contents (Elt F) → (⟨S262144, .f32⟩ : BufTy).Contents (Elt F) → (⟨S262144, .f32⟩ : BufTy).Contents (Elt F)),
    binary main_v19 main_v18 main_v20 (addf : (⟨S262144, .f32⟩ : BufTy).Contents (Elt F) → (⟨S262144, .f32⟩ : BufTy).Contents (Elt F) → (⟨S262144, .f32⟩ : BufTy).Contents (Elt F)),
    nullary main_cst_5 (constant S_ .f32 0x00000000#32),
    unary main_cst_5 main_v21 (broadcastInDim S262144 ![] bcast_S_S262144 : (⟨S_, .f32⟩ : BufTy).Contents (Elt F) → (⟨S262144, .f32⟩ : BufTy).Contents (Elt F)),
    binary main_v20 main_v21 main_v22 (maximumf : (⟨S262144, .f32⟩ : BufTy).Contents (Elt F) → (⟨S262144, .f32⟩ : BufTy).Contents (Elt F) → (⟨S262144, .f32⟩ : BufTy).Contents (Elt F)),
    nullary main_cst_6 (constant S_ .f32 0x00000000#32),
    binary main_v22 main_cst_6 main_v23 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_7 (constant S_ .f32 0x48800000#32),
    binary main_v23 main_cst_7 main_v24 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub .., nullary_bufs_sub .., binary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., binary_bufs_sub .., nullary_bufs_sub .., binary_bufs_sub ..⟩

/-- Entry by entry, the square of `x − y + ε`. -/
def sqDiff (x y : FVec F S262144x128 .f32) : FVec F S262144x128 .f32 :=
  mulf (addf (subf x y) (broadcastInDim S262144x128 ![] bcast_S_S262144x128 (constant S_ .f32 0x358637BD#32)))
    (addf (subf x y) (broadcastInDim S262144x128 ![] bcast_S_S262144x128 (constant S_ .f32 0x358637BD#32)))

/-- Row by row, the square root of the sum of those squares. -/
def norms (x y : FVec F S262144x128 .f32) : FVec F S262144 .f32 :=
  Host.sqrt (Host.reduceAdd (sqDiff x y) (constant S_ .f32 0x00000000#32) reducesTo_S262144x128_S262144_d1 h_S_)

/-- The per-row margin: the four-entry table read at each row's class, a negative class counted from the end. -/
def margins (cs : IVec S262144 32) : FVec F S262144 .f32 :=
  Host.gather gather_S4_S262144x1_S262144_n_0_n_n_0_1_1 (fun i => FloatOps.ofBits .f32 (lit0 (S4.rowMajor i)))
    (broadcastInDim S262144x1 ![0] bcast_S262144_S262144x1_0
      (select (cmpi .slt cs (broadcastInDim S262144 ![] bcast_S_S262144 (constantI S_ 32 0#32)))
        (addi cs (broadcastInDim S262144 ![] bcast_S_S262144 (constantI S_ 32 4#32))) cs))

/-- The result: the losses clipped at zero, added up, divided by the number of rows. -/
def result (a p n : FVec F S262144x128 .f32) (cs : IVec S262144 32) : FVec F S_ .f32 :=
  Host.divf
    (Host.reduceAdd
      (maximumf (addf (subf (norms a p) (norms a n)) (margins cs))
        (broadcastInDim S262144 ![] bcast_S_S262144 (constant S_ .f32 0x00000000#32)))
      (constant S_ .f32 0x00000000#32) reducesTo_S262144_S_d0 h_S_)
    (constant S_ .f32 0x48800000#32)

/-- On every device, from any memory with zero counters: every weakly fair execution of the entry function
    terminates with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefValue.lean ====
/-
  The reference's result term is the mean loss. Read at its one index, the final quotient's numerator is the
  total of the clipped per-row values (a sum over every row, from zero), each of which is the two row norms'
  difference plus the row's margin, not below zero; a row norm is the square root of the row sum of the
  squared shifted differences. These are the specification's `loss` and `mean`, term by term.
-/
import proofs.«139144_j55972013802306_2_alg».proof.Proof.RefRun
import proofs.«139144_j55972013802306_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-- Dropping the second axis of the 262144 × 128 shape leaves the rows. -/
theorem hr : S262144x128.Reduces [1] S262144 := by
  obtain ⟨h1, h2⟩ := reducesTo_S262144x128_S262144_d1
  exact ⟨h1, Nat.one_pos, h2⟩

/-- Row `R`'s norm in the reference is the specification's shifted distance: the row sum starts from zero and
    runs over the row's 128 squared shifted differences. -/
theorem norms_apply (x y : FVec Ideal S262144x128 .f32) (R : Fin 262144) :
    norms (F := Ideal) x y (ix1 R) = Spec.dist x y R := by
  unfold norms Host.sqrt Host.reduceAdd
  simp only [Ideal.hostUnary_sqrt_def, Ideal.hostReduceAdd_def]
  rw [Ideal.hostReduceAdd_single _ hr, constant_apply, Ideal.ofBits_zero_f32, zero_add]
  unfold Spec.dist Spec.sumSq
  refine congrArg Ideal.sqrt ?_
  show ∑ k : Fin 128, sqDiff x y (hr.lift (ix1 R) k) = _
  refine Finset.sum_congr rfl fun k _ => ?_
  have e : hr.lift (ix1 R) k = ix2 R k := funext fun a => by
    match a with
    | ⟨0, _⟩ => exact Fin.ext rfl
    | ⟨1, _⟩ => exact Fin.ext rfl
  rw [e]
  rfl

/-- The reference's result, at its one index, is the mean loss at the reference's margins: the total starts from
    zero and runs over every row's clipped value. -/
theorem result_eq (a p n : FVec Ideal S262144x128 .f32) (cs : IVec S262144 32) :
    result (F := Ideal) a p n cs = fun _ => Spec.mean a p n (margins (F := Ideal) cs) := by
  funext i
  unfold result Host.divf Host.reduceAdd
  simp only [Ideal.hostDivf_def, Ideal.hostReduceAdd_def]
  rw [Ideal.hostReduceAdd_total _ (fun b => b.elim0), constant_apply, constant_apply, Ideal.ofBits_zero_f32, zero_add, Spec.sum_idx1]
  unfold Spec.mean
  refine congrArg (fun s => Ideal.div s (Ideal.ofBits .f32 0x48800000#32)) (Finset.sum_congr rfl fun R _ => ?_)
  show max (norms a p (ix1 R) - norms a n (ix1 R) + margins cs (ix1 R)) (Ideal.ofBits .f32 0x00000000#32) = _
  rw [norms_apply, norms_apply, Ideal.ofBits_zero_f32]
  rfl

end Cert.ReferenceIdeal.RefValue

end
-- ==== Proof.lean ====
/-
  The kernel program and its reference compute one number, the mean over 262144 rows of the clipped triplet
  loss `max (‖a_R − p_R + ε‖ − ‖a_R − n_R + ε‖ + margin_R) 0`, and they agree on the extended reals for every
  input.

  The reference adds the 262144 losses and divides by 262144. The kernel program cuts the rows into 64 blocks
  of 4096; each grid point adds its block's losses and writes that sum into 128 neighbouring entries of a row
  of 8192 numbers; the program then adds the whole row and divides by 262144 · 128. The row's total is 128
  times the total of the losses, and a quotient of `128 · S` by `128 · 262144` is the quotient of `S` by
  `262144`: this uses only that sums may be regrouped, that adding a number to itself 128 times is multiplying
  it by 128, and that dividing by a nonzero real is multiplying by its reciprocal — all true of every extended
  real, so the inputs' finiteness is never used. Both programs look the per-row margin up in the same
  four-entry table by the same operations, so the margin is carried as one term and never opened.

  The frames of the two kernel programs are the generated ones; the reference's frame is its run with the
  result dropped; the kernel's idealization rewrote nothing, so there is nothing to preserve.
-/
import proofs.«139144_j55972013802306_2_alg».proof.Defs
import proofs.«139144_j55972013802306_2_alg».proof.Proof.Gen.Kernel
import proofs.«139144_j55972013802306_2_alg».proof.Proof.Gen.Kernel.Frame
import proofs.«139144_j55972013802306_2_alg».proof.Proof.Gen.KernelIdeal
import proofs.«139144_j55972013802306_2_alg».proof.Proof.Gen.KernelIdeal.Frame
import proofs.«139144_j55972013802306_2_alg».proof.Proof.Gen.ReferenceIdeal
import proofs.«139144_j55972013802306_2_alg».proof.Proof.Gen.Pre_finite_inputs
import proofs.«139144_j55972013802306_2_alg».proof.Proof.KernelValue
import proofs.«139144_j55972013802306_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization changed no operation. -/
theorem preserves : Cert.preserves_Kernel_KernelIdeal := trivial

/-- Both programs look the margins up by the same operations in the same table. -/
theorem margins_eq (cs : IVec Cert.KernelIdeal.S262144 32) :
    Cert.KernelIdeal.Hand.margins cs = Cert.ReferenceIdeal.RefRun.margins (F := Ideal) cs := rfl

/-- From memories that agree on the arguments both programs end with the mean loss in their result buffers:
    the kernel program by its run read back, the reference by its run and its result term read at its index. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2, Cert.ReferenceIdeal.RefValue.result_eq, margins_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
